-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x256x64 : Shape := ⟨4, ![1, 1, 256, 64]⟩
abbrev S1x1x2048x64 : Shape := ⟨4, ![1, 1, 2048, 64]⟩
abbrev S1x1x256x2048 : Shape := ⟨4, ![1, 1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x64, .bf16⟩
  | .hbm, ⟨5, _⟩ => ⟨S2x16x2048x64, .bf16⟩
  | .hbm, ⟨6, _⟩ => ⟨S2x16x2048x64, .bf16⟩
  | .hbm, ⟨7, _⟩ => ⟨S2x16x2048x2048, .i32⟩
  | .hbm, ⟨8, _⟩ => ⟨S2x16x2048x64, .f32⟩
  | .hbm, ⟨9, _⟩ => ⟨S2x16x2048x2048, .f32⟩
  | .local _ .vmem, ⟨0, _⟩ => ⟨S1x1x256x64, .bf16⟩
  | .local _ .vmem, ⟨1, _⟩ => ⟨S1x1x256x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x256x2048, .i32⟩
  | .local _ .vmem, ⟨7, _⟩ => ⟨S1x1x256x2048, .i32⟩
  | .local _ .vmem, ⟨8, _⟩ => ⟨S1x1x256x64, .f32⟩
  | .local _ .vmem, ⟨9, _⟩ => ⟨S1x1x256x64, .f32⟩
  | .local _ .vmem, ⟨10, _⟩ => ⟨S1x1x256x2048, .f32⟩
  | .local _ .vmem, ⟨11, _⟩ => ⟨S1x1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  natLt_1_32 : 1 < 32
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x1x256x2048 : S256x2048.ShapeCasts S1x1x256x2048
  shapeCasts_S256x64_S1x1x256x64 : S256x64.ShapeCasts S1x1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S2x16x2048x64.size a
  hwx0_0 : ∀ i : grid0.Coords, EltTy.bits .bf16 = 32 ∨ (Rect.block (s := S2x16x2048x64) S1x1x256x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .bf16 = 32 ∨ (Rect.block (s := S2x16x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .bf16 = 32 ∨ (Rect.block (s := S2x16x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S2x16x2048x2048.size a
  hwx0_3 : ∀ i : grid0.Coords, EltTy.bits .i32 = 32 ∨ (Rect.block (s := S2x16x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S2x16x2048x64.size a
  hwx0_4 : ∀ i : grid0.Coords, EltTy.bits .f32 = 32 ∨ (Rect.block (s := S2x16x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S2x16x2048x2048.size a
  hwx0_5 : ∀ i : grid0.Coords, EltTy.bits .f32 = 32 ∨ (Rect.block (s := S2x16x2048x2048) S1x1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S_, .f32⟩
  | .hbm, ⟨14, _⟩ => ⟨S2x16x2048, .f32⟩
  | .hbm, ⟨15, _⟩ => ⟨S2x16x2048, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Spec.lean ====
/-
  Masked scaled dot-product attention with an exact row softmax, as functions of the argument arrays, on the extended reals.

  For a batch `b`, a head `h` and a query position `q`, the score against key position `k` is the inner product of query
  row `(b, h, q)` with key row `(b, h, k)` over the 64 features, times the scale `1/8`; where the mask bit at `(b, h, q, k)`
  is set the score is replaced by the fill value. The attention weights of the row are its softmax in the shifted form:
  with `m` the maximum of the row (taken from `-∞`), `exp (s k - m)` over the sum of those exponentials. The context is the
  weights of the row against the value rows: `Σ_k attn (b, h, q, k) · V (b, h, k, d)`.

  The three float constants stay as their bit patterns: the same words appear on both sides of the comparison and are
  never evaluated.
-/
import Idealize.ShloMosaic.PureOps.Ideal
import Idealize.ShloMosaic.Lib.ValueIdx

noncomputable section

open scoped BigOperators

namespace Cert.MaskedAttention

open Idealize.ShloMosaic Idealize.ShloMosaic.ValueIdx

/-- The shape of the query, key and value arrays and of the context: batch, head, position, feature. -/
abbrev Rows : Shape := ⟨4, ![2, 16, 2048, 64]⟩
/-- The shape of the mask and of the attention weights: batch, head, query position, key position. -/
abbrev Pairs : Shape := ⟨4, ![2, 16, 2048, 2048]⟩

/-- One masked score from a mask bit, a query row and a key row: the fill value where the bit is set, elsewhere the inner
    product of the two rows times the scale. -/
def score (c : BitVec 1) (q k : Fin 64 → EReal) : EReal :=
  Scalar.select c (Ideal.ofBits .f32 0xCE6E6B28#32) ((∑ d : Fin 64, q d * k d) * Ideal.ofBits .f32 0x3E000000#32)

/-- The maximum of a row of scores, taken from the pattern of `-∞`. -/
def rowMax (s : Fin 2048 → EReal) : EReal :=
  (Finset.univ : Finset (Fin 2048)).fold max (Ideal.ofBits .f32 0xFF800000#32) s

/-- The exponential of a score shifted by its row's maximum. -/
def expShifted (s : Fin 2048 → EReal) (k : Fin 2048) : EReal := Ideal.exp (s k - rowMax s)

/-- The softmax of a row of scores at position `k`. -/
def softmaxRow (s : Fin 2048 → EReal) (k : Fin 2048) : EReal :=
  Ideal.div (expShifted s k) (∑ k' : Fin 2048, expShifted s k')

/-- The row of masked scores of query position `(b, h, q)` against every key position. -/
def scoreRow (Q K : Rows.Idx → EReal) (M : Pairs.Idx → BitVec 1) (b : Fin 2) (h : Fin 16) (q : Fin 2048) : Fin 2048 → EReal :=
  fun k => score (M (ix4 b h q k)) (fun d => Q (ix4 b h q d)) (fun d => K (ix4 b h k d))

/-- The attention weight at `(b, h, q, k)`. -/
def attnAt (Q K : Rows.Idx → EReal) (M : Pairs.Idx → BitVec 1) (b : Fin 2) (h : Fin 16) (q k : Fin 2048) : EReal :=
  softmaxRow (scoreRow Q K M b h q) k

/-- The context at `(b, h, q, d)`: the weights of row `(b, h, q)` against feature `d` of the value rows. -/
def contextAt (Q K V : Rows.Idx → EReal) (M : Pairs.Idx → BitVec 1) (b : Fin 2) (h : Fin 16) (q : Fin 2048) (d : Fin 64) : EReal :=
  ∑ k : Fin 2048, attnAt Q K M b h q k * V (ix4 b h k d)

/-- The array of attention weights. -/
def attn (Q K : Rows.Idx → EReal) (M : Pairs.Idx → BitVec 1) : Pairs.Idx → EReal :=
  fun i => attnAt Q K M (i 0) (i 1) (i 2) (i 3)

/-- The context array. -/
def context (Q K V : Rows.Idx → EReal) (M : Pairs.Idx → BitVec 1) : Rows.Idx → EReal :=
  fun i => contextAt Q K V M (i 0) (i 1) (i 2) (i 3)

theorem attn_ix4 (Q K : Rows.Idx → EReal) (M : Pairs.Idx → BitVec 1) (b : Fin 2) (h : Fin 16) (q k : Fin 2048) :
    attn Q K M (ix4 b h q k) = attnAt Q K M b h q k := rfl

theorem context_ix4 (Q K V : Rows.Idx → EReal) (M : Pairs.Idx → BitVec 1) (b : Fin 2) (h : Fin 16) (q : Fin 2048) (d : Fin 64) :
    context Q K V M (ix4 b h q d) = contextAt Q K V M b h q d := rfl

end Cert.MaskedAttention

end
-- ==== Proof.Softmax.lean ====
/-
  The shifted softmax of every row of a `[256, 2048]` block, read at an entry.

  The block's rows are reduced twice along the second axis, to their maximum (from the pattern of `-∞`) and, after the
  shift and the exponential, to their sum; each reduction leaves a vector `[256]`, re-laid as the column `[256, 1]` and
  repeated along the row. Read at `(r, k)` all of this depends on row `r` of the block alone, and is the softmax of that
  row at `k`.
-/
import Idealize.ShloMosaic.PureOps.Ideal.Laws
import proofs.«145844_j34772055228636_1_alg».proof.Proof.LibKeepdims
import proofs.«145844_j34772055228636_1_alg».proof.Proof.Spec

noncomputable section

open scoped BigOperators

namespace Cert.MaskedAttention

open Idealize.ShloMosaic Idealize.ShloMosaic.ValueIdx

/-- A block of scores: 256 query positions against every key position. -/
abbrev Blk : Shape := ⟨2, ![256, 2048]⟩
/-- One value per row of the block. -/
abbrev PerRow : Shape := ⟨1, ![256]⟩
/-- The same as a column. -/
abbrev Column : Shape := ⟨2, ![256, 1]⟩

variable (hr : Blk.Reduces [1] PerRow) (hc : PerRow.ShapeCasts Column) (hb : Column.Broadcasts Blk)

/-- The index of the block over row `r` whose coordinate on the reduced axis is `k` is `(r, k)`. -/
theorem lift_row (r : Fin 256) (k : Fin 2048) : hr.lift (ix1 r) k = ix2 r k :=
  funext fun a => Fin.ext (by match a with | ⟨0, _⟩ => rfl | ⟨1, _⟩ => rfl)

/-- The maximum over the second axis, at row `r`, is the maximum of that row. -/
theorem blockMax_apply (s : FVec Ideal Blk .f32) (r : Fin 256) :
    multiReduction .maximumf [1] PerRow s 0xFF800000#32 hr (.inl rfl) rfl (ix1 r) = rowMax (fun k => s (ix2 r k)) := by
  refine (Ideal.multiReduction_maximumf_single s 0xFF800000#32 hr (.inl rfl) rfl (ix1 r)).trans ?_
  exact Finset.fold_congr (fun k _ => congrArg s (lift_row hr r k))

/-- The sum over the second axis, at row `r`, is the sum of that row. -/
theorem blockSum_apply (e : FVec Ideal Blk .f32) (r : Fin 256) :
    multiReduction .add [1] PerRow e 0x00000000#32 hr (.inl rfl) rfl (ix1 r) = ∑ k : Fin 2048, e (ix2 r k) := by
  refine (Ideal.multiReduction_add_single e 0x00000000#32 hr (.inl rfl) rfl (ix1 r)).trans ?_
  exact Finset.sum_congr rfl fun k _ => congrArg e (lift_row hr r k)

/-- A value per row, as a column repeated along the row, reads at `(r, k)` the value of row `r`. -/
theorem alongRow_apply (v : FVec Ideal PerRow .f32) (r : Fin 256) (k : Fin 2048) :
    broadcastTo Blk (shapeCast Column v hc) hb (ix2 r k) = v (ix1 r) :=
  (Cert.Keepdims.broadcastTo_a1_ab_apply (shapeCast Column v hc) hb r k).trans (Cert.Keepdims.shapeCast_a_a1_apply v hc r 0)

/-- The block of exponentials of the scores shifted by their row's maximum. -/
def shiftedExp (s : FVec Ideal Blk .f32) : FVec Ideal Blk .f32 :=
  Idealize.ShloMosaic.exp (subf s (broadcastTo Blk (shapeCast Column (multiReduction .maximumf [1] PerRow s 0xFF800000#32 hr (.inl rfl) rfl) hc) hb))

/-- The softmax of every row of a block of scores. -/
def softmaxBlock (s : FVec Ideal Blk .f32) : FVec Ideal Blk .f32 :=
  divf (shiftedExp hr hc hb s)
    (broadcastTo Blk (shapeCast Column (multiReduction .add [1] PerRow (shiftedExp hr hc hb s) 0x00000000#32 hr (.inl rfl) rfl) hc) hb)

theorem shiftedExp_apply (s : FVec Ideal Blk .f32) (r : Fin 256) (k : Fin 2048) :
    shiftedExp hr hc hb s (ix2 r k) = expShifted (fun k' => s (ix2 r k')) k := by
  show Ideal.exp (s (ix2 r k) - broadcastTo Blk (shapeCast Column (multiReduction .maximumf [1] PerRow s 0xFF800000#32 hr (.inl rfl) rfl) hc) hb (ix2 r k)) = _
  rw [alongRow_apply, blockMax_apply]
  rfl

/-- The softmax block at `(r, k)` is the softmax of row `r` of the scores at `k`. -/
theorem softmaxBlock_apply (s : FVec Ideal Blk .f32) (r : Fin 256) (k : Fin 2048) :
    softmaxBlock hr hc hb s (ix2 r k) = softmaxRow (fun k' => s (ix2 r k')) k := by
  show Ideal.div (shiftedExp hr hc hb s (ix2 r k))
    (broadcastTo Blk (shapeCast Column (multiReduction .add [1] PerRow (shiftedExp hr hc hb s) 0x00000000#32 hr (.inl rfl) rfl) hc) hb (ix2 r k)) = _
  rw [alongRow_apply, blockSum_apply, shiftedExp_apply]
  unfold softmaxRow
  exact congrArg _ (Finset.sum_congr rfl fun k' _ => shiftedExp_apply hr hc hb s r k')

end Cert.MaskedAttention

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.LibContractPlain.lean ====
/-
  Rows against columns: the contraction `[M, K] × [K, N] → [M, N]` of the left operand's last axis with the right
  operand's first, read at an index.

  For the dimension numbers "contract axis 1 with axis 0, no batch axis" (`DotDims.plain M K N`) the entry `(p, q)` of the
  product is `Σ_k l[p,k] · r[k,q]`: row `p` of the left operand against column `q` of the right one. The contraction's own
  index type has one axis of extent `K`; the sum is re-indexed over `Fin K` through that axis, and the operand indices the
  dimension numbers compute are then `(p, k)` and `(k, q)`. Stated for a matrix product into a zero accumulator and for
  the host's `dot_general`, on the extended reals, where both are that plain sum.
-/
import Idealize.ShloMosaic.PureOps.Ideal.Laws
import Idealize.ShloMosaic.Lib.ValueIdx

noncomputable section

namespace Idealize.ShloMosaic.ContractPlain

open Idealize.ShloMosaic Idealize.ShloMosaic.ValueIdx

variable {M K N : Nat}

/-- The left operand's index keeps the output's row. -/
theorem lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's index runs along its last axis with the contraction. -/
theorem lhs_col (j : (⟨2, ![M, N]⟩ : Shape).Idx) (k : (DotDims.plain M K N).contr.Idx) :
    ((DotDims.plain M K N).lhsIdx j k 1).val = (k ⟨0, Nat.zero_lt_one⟩).val :=
  (DotDims.plain M K N).lhsIdx_val_of_single rfl j k

/-- The right operand's index runs along its first axis with the contraction. -/
theorem rhs_row (j : (⟨2, ![M, N]⟩ : Shape).Idx) (k : (DotDims.plain M K N).contr.Idx) :
    ((DotDims.plain M K N).rhsIdx j k 0).val = (k ⟨0, Nat.zero_lt_one⟩).val :=
  (DotDims.plain M K N).rhsIdx_val_of_single rfl j k

/-- The right operand's index keeps the output's column. -/
theorem rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE SUM: over the contraction's index it is the sum over `k : Fin K` of row `p` against column `q`. -/
theorem sum_row_col (l : (⟨2, ![M, K]⟩ : Shape).Idx → EReal) (r : (⟨2, ![K, N]⟩ : Shape).Idx → EReal) (p : Fin M) (q : Fin N) :
    (∑ k : (DotDims.plain M K N).contr.Idx,
        l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- A matrix product into the zero accumulator, rows against columns, at `(p, q)`. -/
theorem matmul_zero_apply {φ₁ φ₂ : FTy} (prec : Option ContractPrecision)
    (l : FVec Ideal (⟨2, ![M, K]⟩ : Shape) φ₁) (r : FVec Ideal (⟨2, ![K, N]⟩ : Shape) φ₂) (p : Fin M) (q : Fin N) :
    FloatOps.matmul (DotDims.plain M K N) prec l r (constant (⟨2, ![M, N]⟩ : Shape) .f32 0x00000000#32) (ix2 p q)
      = ∑ k : Fin K, l (ix2 p k) * r (ix2 k q) :=
  (Ideal.matmul_constant_zero_apply (DotDims.plain M K N) prec l r (ix2 p q)).trans (sum_row_col l r p q)

/-- The host's `dot_general`, rows against columns, at `(p, q)`. -/
theorem dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (sum_row_col l r p q)

end Idealize.ShloMosaic.ContractPlain

end
-- ==== Proof.LibSqueeze.lean ====
/-
  Two leading unit axes dropped by a shape cast, read at an index given by coordinates: a block `[1, 1, a, b]` re-laid as
  the matrix `[a, b]` reads, at `(i, j)`, the block at `(0, 0, i, j)` — the row-major position of both is `i · b + j`.
-/
import Idealize.ShloMosaic.Lib.ValueLayout

namespace Cert.Squeeze

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_two, Shape.rowMajor_val_four]
    show ((0 * 1 + 0) * a + i.val) * b + j.val = i.val * b + j.val
    simp)

end Cert.Squeeze
-- ==== Proof.Body.lean ====
/-
  What the kernel's body computes at one grid point, read at an entry, from the four blocks it loads: a block of 256
  query rows, all 2048 key rows and value rows of the same batch and head, and the 256 × 2048 block of mask words.

  The mask words are the mask bits widened to 32 bits; the body compares them with zero, which gives the bits back. The
  scores are the query rows against the key rows (a product contracting the last axis of both) times the scale, replaced by
  the fill value where the bit is set; the attention block is the softmax of every row of that; the context block is the
  attention block against the value rows (a plain matrix product). A change of float format is the identity on the
  extended reals, so the roundings on the way into the two products are not seen.
-/
import proofs.«145844_j34772055228636_1_alg».proof.Proof.Gen.KernelIdeal.Skeleton
import proofs.«145844_j34772055228636_1_alg».proof.Proof.Softmax
import proofs.«145844_j34772055228636_1_alg».proof.Proof.LibContractRows
import proofs.«145844_j34772055228636_1_alg».proof.Proof.LibContractPlain
import proofs.«145844_j34772055228636_1_alg».proof.Proof.LibSqueeze

noncomputable section

open scoped BigOperators

namespace Cert.KernelIdeal.BodyValue

open Cert.KernelIdeal Cert.KernelIdeal.Gen Idealize.ShloMosaic Idealize.ShloMosaic.ValueIdx Cert.MaskedAttention

/-- A mask bit widened to a 32-bit word and compared with zero is the bit. -/
theorem bit_of_word (b : BitVec 1) : IntOp.cmpi .ne (b.setWidth 32) 0#32 = b := by
  rcases BitVec.eq_zero_or_eq_one b with h | h <;> subst h <;> decide

variable (q : FVec Ideal S1x1x256x64 .bf16) (kk vv : FVec Ideal S1x1x2048x64 .bf16) (mk : IVec S1x1x256x2048 32)

/-- The mask words of the block compared with zero. -/
def maskBits : IVec S256x2048 1 :=
  cmpi .ne (shapeCast S256x2048 mk shapeCasts_S1x1x256x2048_S256x2048) (constantI S256x2048 32 0#32)

/-- The query rows of the block against every key row. -/
def products : FVec Ideal S256x2048 .f32 :=
  matmul dot_S256x64_S2048x64_S256x2048_1_1_0_0_n_n none (shapeCast S256x64 q shapeCasts_S1x1x256x64_S256x64)
    (shapeCast S2048x64 kk shapeCasts_S1x1x2048x64_S2048x64) (constant S256x2048 .f32 0x00000000#32)

/-- The block of masked, scaled scores. -/
def scoreBlock : FVec Ideal S256x2048 .f32 :=
  select (maskBits mk) (broadcast S256x2048 (Scalar.ofBits .f32 0xCE6E6B28#32))
    (mulf (products q kk) (broadcast S256x2048 (Scalar.ofBits .f32 0x3E000000#32)))

theorem maskBits_apply (r : Fin 256) (k : Fin 2048) :
    maskBits mk (ix2 r k) = IntOp.cmpi .ne (mk (ix4 (0 : Fin 1) (0 : Fin 1) r k)) 0#32 :=
  congrArg (fun w => IntOp.cmpi .ne w 0#32) (Cert.Squeeze.shapeCast_11ab_ab_apply mk shapeCasts_S1x1x256x2048_S256x2048 r k)

theorem products_apply (r : Fin 256) (k : Fin 2048) :
    products q kk (ix2 r k) = ∑ d : Fin 64, q (ix4 (0 : Fin 1) (0 : Fin 1) r d) * kk (ix4 (0 : Fin 1) (0 : Fin 1) k d) := by
  refine (ContractRows.matmul_zero_apply (M := 256) (K := 64) (N := 2048) none (shapeCast S256x64 q shapeCasts_S1x1x256x64_S256x64)
    (shapeCast S2048x64 kk shapeCasts_S1x1x2048x64_S2048x64) r k).trans ?_
  refine Finset.sum_congr rfl fun d _ => ?_
  rw [Cert.Squeeze.shapeCast_11ab_ab_apply q shapeCasts_S1x1x256x64_S256x64 r d,
    Cert.Squeeze.shapeCast_11ab_ab_apply kk shapeCasts_S1x1x2048x64_S2048x64 k d]

/-- The score block at `(r, k)`: the masked score of query row `r` of the block against key row `k`. -/
theorem scoreBlock_apply (r : Fin 256) (k : Fin 2048) :
    scoreBlock q kk mk (ix2 r k)
      = score (IntOp.cmpi .ne (mk (ix4 (0 : Fin 1) (0 : Fin 1) r k)) 0#32) (fun d => q (ix4 (0 : Fin 1) (0 : Fin 1) r d))
          (fun d => kk (ix4 (0 : Fin 1) (0 : Fin 1) k d)) := by
  show Scalar.select (maskBits mk (ix2 r k)) (Ideal.ofBits .f32 0xCE6E6B28#32)
    (products q kk (ix2 r k) * Ideal.ofBits .f32 0x3E000000#32) = _
  rw [maskBits_apply, products_apply]
  rfl

/-- The body's attention payload is the softmax of every row of the score block. -/
theorem attnPayload_eq :
    k0_pay2 (F := Ideal) q kk mk = softmaxBlock reduces_S256x2048_S256 shapeCasts_S256_S256x1 broadcasts_S256x1_S256x2048 (scoreBlock q kk mk) := rfl

/-- The row of masked scores of query row `r` of the block. -/
def blockScoreRow (r : Fin 256) : Fin 2048 → EReal :=
  fun k => score (IntOp.cmpi .ne (mk (ix4 (0 : Fin 1) (0 : Fin 1) r k)) 0#32) (fun d => q (ix4 (0 : Fin 1) (0 : Fin 1) r d))
    (fun d => kk (ix4 (0 : Fin 1) (0 : Fin 1) k d))

/-- The attention payload at `(r, k)`. -/
theorem attnPayload_apply (r : Fin 256) (k : Fin 2048) :
    k0_pay2 (F := Ideal) q kk mk (ix2 r k) = softmaxRow (blockScoreRow q kk mk r) k := by
  rw [attnPayload_eq, softmaxBlock_apply]
  exact congrArg (fun s => softmaxRow s k) (funext fun k' => scoreBlock_apply q kk mk r k')

/-- The context payload at `(r, d)`: the attention weights of row `r` against feature `d` of the value rows. -/
theorem contextPayload_apply (r : Fin 256) (d : Fin 64) :
    k0_pay4 (F := Ideal) q kk vv mk (ix2 r d)
      = ∑ k : Fin 2048, softmaxRow (blockScoreRow q kk mk r) k * vv (ix4 (0 : Fin 1) (0 : Fin 1) k d) := by
  refine (ContractPlain.matmul_zero_apply (M := 256) (K := 2048) (N := 64) none (truncf .bf16 (k0_pay2 q kk mk) bitsLt_bf16_f32)
    (shapeCast S2048x64 vv shapeCasts_S1x1x2048x64_S2048x64) r d).trans ?_
  refine Finset.sum_congr rfl fun k _ => ?_
  show k0_pay2 (F := Ideal) q kk mk (ix2 r k) * shapeCast S2048x64 vv shapeCasts_S1x1x2048x64_S2048x64 (ix2 k d) = _
  rw [attnPayload_apply, Cert.Squeeze.shapeCast_11ab_ab_apply vv shapeCasts_S1x1x2048x64_S2048x64 k d]

end Cert.KernelIdeal.BodyValue

end
-- ==== Proof.ArrayValue.lean ====
/-
  From what each grid point writes back to the two result arrays, as functions of the argument arrays.

  The grid has 2 × 16 × 8 points `(b, h, g)`. At a point the kernel reads query rows `g·256 … g·256 + 255` of batch `b`
  and head `h`, every key row and every value row of `(b, h)`, and the mask words of those query rows; it writes back
  rows `g·256 … g·256 + 255` of the context and of the attention weights of `(b, h)`. The arrays the region finds are the
  arguments after the host's conversions: the three float arrays with their format changed, which is the identity on the
  extended reals, and the mask bits widened to words. An entry of a block therefore is the entry of the argument array at
  batch `b`, head `h`, row `g·256 + r` (for the keys and values, row `k`), and what the point writes is the block of the
  specification's arrays at the same place. The blocks of all the points tile both result arrays: the point that covers
  row `q` of `(b, h)` is `(b, h, q / 256)`.
-/
import proofs.«145844_j34772055228636_1_alg».proof.Proof.Gen.KernelIdeal.Value
import proofs.«145844_j34772055228636_1_alg».proof.Proof.Body
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo Cert.MaskedAttention Cert.KernelIdeal.BodyValue
open Idealize.ShloMosaic.Pipeline (Dat)

variable (m : (ℓ : Loc nD τ sig) → Buf (Elt Ideal) ℓ) (ρ : Dev nD → PrngReg)

/-! ## The argument arrays, and the arrays the region finds -/

/-- The query array as launched. -/
abbrev argQ (c : Dev nD) : Rows.Idx → EReal := m ((c : Thread nD τ).loc main_arg0)
/-- The key array as launched. -/
abbrev argK (c : Dev nD) : Rows.Idx → EReal := m ((c : Thread nD τ).loc main_arg1)
/-- The value array as launched. -/
abbrev argV (c : Dev nD) : Rows.Idx → EReal := m ((c : Thread nD τ).loc main_arg2)
/-- The mask as launched. -/
abbrev argM (c : Dev nD) : Pairs.Idx → BitVec 1 := m ((c : Thread nD τ).loc main_arg3)

/-- The converted query array is the query array: a change of format is the identity. -/
theorem entryQ (c : Dev nD) : (V m c main_v0 : S2x16x2048x64.Idx → EReal) = argQ m c := by
  dsimp only [V, hostOps0]; after_results; rfl

theorem entryK (c : Dev nD) : (V m c main_v1 : S2x16x2048x64.Idx → EReal) = argK m c := by
  dsimp only [V, hostOps0]; after_results; rfl

theorem entryV (c : Dev nD) : (V m c main_v2 : S2x16x2048x64.Idx → EReal) = argV m c := by
  dsimp only [V, hostOps0]; after_results; rfl

/-- The mask words are the mask bits widened. -/
theorem entryM (c : Dev nD) : (V m c main_v3 : S2x16x2048x2048.Idx → BitVec 32) = fun i => (argM m c i).setWidth 32 := by
  dsimp only [V, hostOps0]; after_results; rfl

/-! ## The grid's coordinates and the windows' block indices -/

theorem coord0_lt (t : Fin cfg0.N) : (grid0.coords t 0).val < 2 := (grid0.coords t 0).isLt
theorem coord1_lt (t : Fin cfg0.N) : (grid0.coords t 1).val < 16 := (grid0.coords t 1).isLt
theorem coord2_lt (t : Fin cfg0.N) : (grid0.coords t 2).val < 8 := (grid0.coords t 2).isLt

/-- The batch of point `t`. -/
def pointBatch (t : Fin cfg0.N) : Fin 2 := ⟨(grid0.coords t 0).val, coord0_lt t⟩
/-- The head of point `t`. -/
def pointHead (t : Fin cfg0.N) : Fin 16 := ⟨(grid0.coords t 1).val, coord1_lt t⟩
/-- The query position of row `r` of point `t`'s block. -/
def pointRow (t : Fin cfg0.N) (r : Fin 256) : Fin 2048 :=
  ⟨(grid0.coords t 2).val * 256 + r.val, by have := coord2_lt t; have := r.isLt; omega⟩

/-- A small grid coordinate passed through a 32-bit word comes back. -/
theorem word_of_coord (n : Nat) (h : n < 16) : (BitVec.ofNat 32 n).toNat = n := by
  rw [BitVec.toNat_ofNat]; exact Nat.mod_eq_of_lt (by omega)

/-- The block index of the windows that move with all three grid coordinates: the queries, the mask, both results. -/
theorem idx_rows0 (t : Fin cfg0.N) : win0_0.index t (0 : Fin 4) = (grid0.coords t 0).val ∧ win0_0.index t (1 : Fin 4) = (grid0.coords t 1).val
    ∧ win0_0.index t (2 : Fin 4) = (grid0.coords t 2).val ∧ win0_0.index t (3 : Fin 4) = 0 :=
  ⟨word_of_coord _ (by have := coord0_lt t; omega), word_of_coord _ (coord1_lt t), word_of_coord _ (by have := coord2_lt t; omega), rfl⟩
theorem idx_rows3 (t : Fin cfg0.N) : win0_3.index t (0 : Fin 4) = (grid0.coords t 0).val ∧ win0_3.index t (1 : Fin 4) = (grid0.coords t 1).val
    ∧ win0_3.index t (2 : Fin 4) = (grid0.coords t 2).val ∧ win0_3.index t (3 : Fin 4) = 0 :=
  ⟨word_of_coord _ (by have := coord0_lt t; omega), word_of_coord _ (coord1_lt t), word_of_coord _ (by have := coord2_lt t; omega), rfl⟩
theorem idx_rows4 (t : Fin cfg0.N) : win0_4.index t (0 : Fin 4) = (grid0.coords t 0).val ∧ win0_4.index t (1 : Fin 4) = (grid0.coords t 1).val
    ∧ win0_4.index t (2 : Fin 4) = (grid0.coords t 2).val ∧ win0_4.index t (3 : Fin 4) = 0 :=
  ⟨word_of_coord _ (by have := coord0_lt t; omega), word_of_coord _ (coord1_lt t), word_of_coord _ (by have := coord2_lt t; omega), rfl⟩
theorem idx_rows5 (t : Fin cfg0.N) : win0_5.index t (0 : Fin 4) = (grid0.coords t 0).val ∧ win0_5.index t (1 : Fin 4) = (grid0.coords t 1).val
    ∧ win0_5.index t (2 : Fin 4) = (grid0.coords t 2).val ∧ win0_5.index t (3 : Fin 4) = 0 :=
  ⟨word_of_coord _ (by have := coord0_lt t; omega), word_of_coord _ (coord1_lt t), word_of_coord _ (by have := coord2_lt t; omega), rfl⟩
/-- The block index of the windows that move with batch and head only: the keys and the values. -/
theorem idx_all1 (t : Fin cfg0.N) : win0_1.index t (0 : Fin 4) = (grid0.coords t 0).val ∧ win0_1.index t (1 : Fin 4) = (grid0.coords t 1).val
    ∧ win0_1.index t (2 : Fin 4) = 0 ∧ win0_1.index t (3 : Fin 4) = 0 :=
  ⟨word_of_coord _ (by have := coord0_lt t; omega), word_of_coord _ (coord1_lt t), rfl, rfl⟩
theorem idx_all2 (t : Fin cfg0.N) : win0_2.index t (0 : Fin 4) = (grid0.coords t 0).val ∧ win0_2.index t (1 : Fin 4) = (grid0.coords t 1).val
    ∧ win0_2.index t (2 : Fin 4) = 0 ∧ win0_2.index t (3 : Fin 4) = 0 :=
  ⟨word_of_coord _ (by have := coord0_lt t; omega), word_of_coord _ (coord1_lt t), rfl, rfl⟩

/-! ## Where a block's entry sits in its array -/

theorem embQ (t : Fin cfg0.N) (r : Fin 256) (d : Fin 64) :
    ((cfg0.win 0).blk t).view.emb (ix4 (0 : Fin 1) (0 : Fin 1) r d) = ix4 (pointBatch t) (pointHead t) (pointRow t r) d := by
  obtain ⟨e0, e1, e2, e3⟩ := idx_rows0 t
  funext a; apply Fin.ext
  match a with
  | ⟨0, _⟩ => show win0_0.index t (0 : Fin 4) * 1 + 1 * 0 = (grid0.coords t 0).val; omega
  | ⟨1, _⟩ => show win0_0.index t (1 : Fin 4) * 1 + 1 * 0 = (grid0.coords t 1).val; omega
  | ⟨2, _⟩ => show win0_0.index t (2 : Fin 4) * 256 + 1 * r.val = (grid0.coords t 2).val * 256 + r.val; omega
  | ⟨3, _⟩ => show win0_0.index t (3 : Fin 4) * 64 + 1 * d.val = d.val; omega

theorem embK (t : Fin cfg0.N) (k : Fin 2048) (d : Fin 64) :
    ((cfg0.win 1).blk t).view.emb (ix4 (0 : Fin 1) (0 : Fin 1) k d) = ix4 (pointBatch t) (pointHead t) k d := by
  obtain ⟨e0, e1, e2, e3⟩ := idx_all1 t
  funext a; apply Fin.ext
  match a with
  | ⟨0, _⟩ => show win0_1.index t (0 : Fin 4) * 1 + 1 * 0 = (grid0.coords t 0).val; omega
  | ⟨1, _⟩ => show win0_1.index t (1 : Fin 4) * 1 + 1 * 0 = (grid0.coords t 1).val; omega
  | ⟨2, _⟩ => show win0_1.index t (2 : Fin 4) * 2048 + 1 * k.val = k.val; omega
  | ⟨3, _⟩ => show win0_1.index t (3 : Fin 4) * 64 + 1 * d.val = d.val; omega

theorem embV (t : Fin cfg0.N) (k : Fin 2048) (d : Fin 64) :
    ((cfg0.win 2).blk t).view.emb (ix4 (0 : Fin 1) (0 : Fin 1) k d) = ix4 (pointBatch t) (pointHead t) k d := by
  obtain ⟨e0, e1, e2, e3⟩ := idx_all2 t
  funext a; apply Fin.ext
  match a with
  | ⟨0, _⟩ => show win0_2.index t (0 : Fin 4) * 1 + 1 * 0 = (grid0.coords t 0).val; omega
  | ⟨1, _⟩ => show win0_2.index t (1 : Fin 4) * 1 + 1 * 0 = (grid0.coords t 1).val; omega
  | ⟨2, _⟩ => show win0_2.index t (2 : Fin 4) * 2048 + 1 * k.val = k.val; omega
  | ⟨3, _⟩ => show win0_2.index t (3 : Fin 4) * 64 + 1 * d.val = d.val; omega

theorem embM (t : Fin cfg0.N) (r : Fin 256) (k : Fin 2048) :
    ((cfg0.win 3).blk t).view.emb (ix4 (0 : Fin 1) (0 : Fin 1) r k) = ix4 (pointBatch t) (pointHead t) (pointRow t r) k := by
  obtain ⟨e0, e1, e2, e3⟩ := idx_rows3 t
  funext a; apply Fin.ext
  match a with
  | ⟨0, _⟩ => show win0_3.index t (0 : Fin 4) * 1 + 1 * 0 = (grid0.coords t 0).val; omega
  | ⟨1, _⟩ => show win0_3.index t (1 : Fin 4) * 1 + 1 * 0 = (grid0.coords t 1).val; omega
  | ⟨2, _⟩ => show win0_3.index t (2 : Fin 4) * 256 + 1 * r.val = (grid0.coords t 2).val * 256 + r.val; omega
  | ⟨3, _⟩ => show win0_3.index t (3 : Fin 4) * 2048 + 1 * k.val = k.val; omega

theorem embContext (t : Fin cfg0.N) (r : Fin 256) (d : Fin 64) :
    ((cfg0.win 4).blk t).view.emb (ix4 (0 : Fin 1) (0 : Fin 1) r d) = ix4 (pointBatch t) (pointHead t) (pointRow t r) d := by
  obtain ⟨e0, e1, e2, e3⟩ := idx_rows4 t
  funext a; apply Fin.ext
  match a with
  | ⟨0, _⟩ => show win0_4.index t (0 : Fin 4) * 1 + 1 * 0 = (grid0.coords t 0).val; omega
  | ⟨1, _⟩ => show win0_4.index t (1 : Fin 4) * 1 + 1 * 0 = (grid0.coords t 1).val; omega
  | ⟨2, _⟩ => show win0_4.index t (2 : Fin 4) * 256 + 1 * r.val = (grid0.coords t 2).val * 256 + r.val; omega
  | ⟨3, _⟩ => show win0_4.index t (3 : Fin 4) * 64 + 1 * d.val = d.val; omega

theorem embAttn (t : Fin cfg0.N) (r : Fin 256) (k : Fin 2048) :
    ((cfg0.win 5).blk t).view.emb (ix4 (0 : Fin 1) (0 : Fin 1) r k) = ix4 (pointBatch t) (pointHead t) (pointRow t r) k := by
  obtain ⟨e0, e1, e2, e3⟩ := idx_rows5 t
  funext a; apply Fin.ext
  match a with
  | ⟨0, _⟩ => show win0_5.index t (0 : Fin 4) * 1 + 1 * 0 = (grid0.coords t 0).val; omega
  | ⟨1, _⟩ => show win0_5.index t (1 : Fin 4) * 1 + 1 * 0 = (grid0.coords t 1).val; omega
  | ⟨2, _⟩ => show win0_5.index t (2 : Fin 4) * 256 + 1 * r.val = (grid0.coords t 2).val * 256 + r.val; omega
  | ⟨3, _⟩ => show win0_5.index t (3 : Fin 4) * 2048 + 1 * k.val = k.val; omega

/-! ## The input blocks read at an entry -/

theorem readQ (c : Dev nD) (t : Fin cfg0.N) (r : Fin 256) (d : Fin 64) :
    iblk m c 0 t (ix4 (0 : Fin 1) (0 : Fin 1) r d) = argQ m c (ix4 (pointBatch t) (pointHead t) (pointRow t r) d) := by
  show V m c main_v0 (((cfg0.win 0).blk t).view.emb (ix4 (0 : Fin 1) (0 : Fin 1) r d)) = _
  exact (congrFun (entryQ m c) _).trans (congrArg (argQ m c) (embQ t r d))

theorem readK (c : Dev nD) (t : Fin cfg0.N) (k : Fin 2048) (d : Fin 64) :
    iblk m c 1 t (ix4 (0 : Fin 1) (0 : Fin 1) k d) = argK m c (ix4 (pointBatch t) (pointHead t) k d) := by
  show V m c main_v1 (((cfg0.win 1).blk t).view.emb (ix4 (0 : Fin 1) (0 : Fin 1) k d)) = _
  exact (congrFun (entryK m c) _).trans (congrArg (argK m c) (embK t k d))

theorem readV (c : Dev nD) (t : Fin cfg0.N) (k : Fin 2048) (d : Fin 64) :
    iblk m c 2 t (ix4 (0 : Fin 1) (0 : Fin 1) k d) = argV m c (ix4 (pointBatch t) (pointHead t) k d) := by
  show V m c main_v2 (((cfg0.win 2).blk t).view.emb (ix4 (0 : Fin 1) (0 : Fin 1) k d)) = _
  exact (congrFun (entryV m c) _).trans (congrArg (argV m c) (embV t k d))

theorem readM (c : Dev nD) (t : Fin cfg0.N) (r : Fin 256) (k : Fin 2048) :
    iblk m c 3 t (ix4 (0 : Fin 1) (0 : Fin 1) r k) = (argM m c (ix4 (pointBatch t) (pointHead t) (pointRow t r) k)).setWidth 32 := by
  show V m c main_v3 (((cfg0.win 3).blk t).view.emb (ix4 (0 : Fin 1) (0 : Fin 1) r k)) = _
  exact (congrFun (entryM m c) _).trans (congrArg (fun i => (argM m c i).setWidth 32) (embM t r k))

/-- Row `r` of point `t`'s score block is the specification's row of scores of query position `g·256 + r` of `(b, h)`. -/
theorem blockRow_eq (c : Dev nD) (t : Fin cfg0.N) (r : Fin 256) :
    blockScoreRow (iblk m c 0 t) (iblk m c 1 t) (iblk m c 3 t) r
      = scoreRow (argQ m c) (argK m c) (argM m c) (pointBatch t) (pointHead t) (pointRow t r) := by
  funext k
  show score (IntOp.cmpi .ne (iblk m c 3 t (ix4 (0 : Fin 1) (0 : Fin 1) r k)) 0#32)
      (fun d => iblk m c 0 t (ix4 (0 : Fin 1) (0 : Fin 1) r d)) (fun d => iblk m c 1 t (ix4 (0 : Fin 1) (0 : Fin 1) k d))
    = score (argM m c (ix4 (pointBatch t) (pointHead t) (pointRow t r) k))
      (fun d => argQ m c (ix4 (pointBatch t) (pointHead t) (pointRow t r) d)) (fun d => argK m c (ix4 (pointBatch t) (pointHead t) k d))
  rw [readM, bit_of_word, funext fun d => readQ m c t r d, funext fun d => readK m c t k d]

/-! ## What the body leaves in the two output blocks, over any four input blocks -/

theorem zeros4 : (![0, 0, 0, 0] : Fin 4 → Nat) = fun _ => 0 := funext fun a => by fin_cases a <;> rfl

theorem attnOut_apply (x0 : Vec Ideal S1x1x256x64 .bf16) (x1 x2 : Vec Ideal S1x1x2048x64 .bf16) (x3 : Vec Ideal S1x1x256x2048 .i32)
    (r : Fin 256) (k : Fin 2048) :
    out0_5 x0 x1 x2 x3 (ix4 (0 : Fin 1) (0 : Fin 1) r k) = softmaxRow (blockScoreRow x0 x1 x3 r) k := by
  have e : Value.ix5_0 (ix4 (0 : Fin 1) (0 : Fin 1) r k) = ix2 r k :=
    funext fun a => Fin.ext (by match a with | ⟨0, _⟩ => rfl | ⟨1, _⟩ => rfl)
  unfold out0_5
  rw [Value.canon5_eq]
  show k0_pay2 (View.ld x0 r0_0) (View.ld x1 r0_1) (View.ld x3 r0_2) (Value.ix5_0 (ix4 (0 : Fin 1) (0 : Fin 1) r k)) = _
  rw [e, View.ld_unit_zero zeros4, View.ld_unit_zero zeros4, View.ld_unit_zero zeros4, attnPayload_apply]

theorem contextOut_apply (x0 : Vec Ideal S1x1x256x64 .bf16) (x1 x2 : Vec Ideal S1x1x2048x64 .bf16) (x3 : Vec Ideal S1x1x256x2048 .i32)
    (r : Fin 256) (d : Fin 64) :
    out0_4 x0 x1 x2 x3 (ix4 (0 : Fin 1) (0 : Fin 1) r d)
      = ∑ k : Fin 2048, softmaxRow (blockScoreRow x0 x1 x3 r) k * x2 (ix4 (0 : Fin 1) (0 : Fin 1) k d) := by
  have e : Value.ix4_0 (ix4 (0 : Fin 1) (0 : Fin 1) r d) = ix2 r d :=
    funext fun a => Fin.ext (by match a with | ⟨0, _⟩ => rfl | ⟨1, _⟩ => rfl)
  unfold out0_4
  rw [Value.canon4_eq]
  show k0_pay4 (View.ld x0 r0_0) (View.ld x1 r0_1) (View.ld x2 r0_1) (View.ld x3 r0_2) (Value.ix4_0 (ix4 (0 : Fin 1) (0 : Fin 1) r d)) = _
  rw [e, View.ld_unit_zero zeros4, View.ld_unit_zero zeros4, View.ld_unit_zero zeros4, View.ld_unit_zero zeros4, contextPayload_apply]

/-! ## What each point writes back -/

/-- Point `t` writes back its block of the attention weights. -/
theorem attnFlushed (c : Dev nD) (t : Fin cfg0.N) :
    (dats m 0 c).flushed 5 t = ((cfg0.win 5).blk t).view.read (Elt Ideal) (attn (argQ m c) (argK m c) (argM m c)) := by
  rw [Value.flushed5]
  funext y
  obtain ⟨u0, u1, r, k, rfl⟩ : ∃ (u0 u1 : Fin 1) (r : Fin 256) (k : Fin 2048), y = ix4 u0 u1 r k :=
    ⟨y 0, y 1, y 2, y 3, @eq_ix4 1 1 256 2048 y⟩
  obtain rfl : u0 = 0 := Subsingleton.elim _ _
  obtain rfl : u1 = 0 := Subsingleton.elim _ _
  show out0_5 (iblk m c 0 t) (iblk m c 1 t) (iblk m c 2 t) (iblk m c 3 t) (ix4 (0 : Fin 1) (0 : Fin 1) r k)
    = attn (argQ m c) (argK m c) (argM m c) (((cfg0.win 5).blk t).view.emb (ix4 (0 : Fin 1) (0 : Fin 1) r k))
  rw [embAttn, attn_ix4]
  refine (attnOut_apply (iblk m c 0 t) (iblk m c 1 t) (iblk m c 2 t) (iblk m c 3 t) r k).trans ?_
  exact congrArg (fun s => softmaxRow s k) (blockRow_eq m c t r)

/-- Point `t` writes back its block of the context. -/
theorem contextFlushed (c : Dev nD) (t : Fin cfg0.N) :
    (dats m 0 c).flushed 4 t = ((cfg0.win 4).blk t).view.read (Elt Ideal) (context (argQ m c) (argK m c) (argV m c) (argM m c)) := by
  rw [Value.flushed4]
  funext y
  obtain ⟨u0, u1, r, d, rfl⟩ : ∃ (u0 u1 : Fin 1) (r : Fin 256) (d : Fin 64), y = ix4 u0 u1 r d :=
    ⟨y 0, y 1, y 2, y 3, @eq_ix4 1 1 256 64 y⟩
  obtain rfl : u0 = 0 := Subsingleton.elim _ _
  obtain rfl : u1 = 0 := Subsingleton.elim _ _
  show out0_4 (iblk m c 0 t) (iblk m c 1 t) (iblk m c 2 t) (iblk m c 3 t) (ix4 (0 : Fin 1) (0 : Fin 1) r d)
    = context (argQ m c) (argK m c) (argV m c) (argM m c) (((cfg0.win 4).blk t).view.emb (ix4 (0 : Fin 1) (0 : Fin 1) r d))
  rw [embContext, context_ix4]
  refine (contextOut_apply (iblk m c 0 t) (iblk m c 1 t) (iblk m c 2 t) (iblk m c 3 t) r d).trans ?_
  refine Finset.sum_congr rfl fun k _ => ?_
  rw [blockRow_eq m c t r, readV m c t k d]
  rfl

/-! ## The blocks tile the result arrays -/

theorem stride0 : grid0.stride 0 = 128 := by decide
theorem stride1 : grid0.stride 1 = 8 := by decide
theorem stride2 : grid0.stride 2 = 1 := by decide

/-- The point with coordinates `(b, h, g)`. -/
def pointOf (b : Fin 2) (h : Fin 16) (g : Fin 8) : Fin cfg0.N :=
  ⟨b.val * 128 + h.val * 8 + g.val, by rw [show cfg0.N = 256 from N_0]; have := b.isLt; have := h.isLt; have := g.isLt; omega⟩

theorem coords_pointOf (b : Fin 2) (h : Fin 16) (g : Fin 8) :
    (grid0.coords (pointOf b h g) 0).val = b.val ∧ (grid0.coords (pointOf b h g) 1).val = h.val ∧ (grid0.coords (pointOf b h g) 2).val = g.val := by
  have hb := b.isLt; have hh := h.isLt; have hg := g.isLt
  refine ⟨?_, ?_, ?_⟩
  · show (b.val * 128 + h.val * 8 + g.val) / grid0.stride 0 % 2 = b.val
    rw [stride0]; omega
  · show (b.val * 128 + h.val * 8 + g.val) / grid0.stride 1 % 16 = h.val
    rw [stride1]; omega
  · show (b.val * 128 + h.val * 8 + g.val) / grid0.stride 2 % 8 = g.val
    rw [stride2]; omega

theorem mem_attnBlk (t : Fin cfg0.N) (i : S2x16x2048x2048.Idx) :
    i ∈ ((cfg0.win 5).blk t).view.set ↔ ∀ a : Fin 4, win0_5.index t a * S1x1x256x2048.size a ≤ (i a).val
      ∧ (i a).val < win0_5.index t a * S1x1x256x2048.size a + S1x1x256x2048.size a := by
  show i ∈ ((View.whole main_v4_1).slice (win0_5.rect t)).set ↔ _
  rw [View.set_slice_whole, Rect.mem_set_unit]
  exact Iff.rfl

theorem mem_contextBlk (t : Fin cfg0.N) (i : S2x16x2048x64.Idx) :
    i ∈ ((cfg0.win 4).blk t).view.set ↔ ∀ a : Fin 4, win0_4.index t a * S1x1x256x64.size a ≤ (i a).val
      ∧ (i a).val < win0_4.index t a * S1x1x256x64.size a + S1x1x256x64.size a := by
  show i ∈ ((View.whole main_v4_0).slice (win0_4.rect t)).set ↔ _
  rw [View.set_slice_whole, Rect.mem_set_unit]
  exact Iff.rfl

/-- Every entry of the attention array is in the block of the point of its batch, its head and its row's group of 256. -/
theorem attn_cover (i : S2x16x2048x2048.Idx) :
    ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 2048 := (i 3).isLt
  refine ⟨pointOf ⟨(i 0).val, h0⟩ ⟨(i 1).val, h1⟩ ⟨(i 2).val / 256, by omega⟩, flush0_5 _, ?_⟩
  obtain ⟨c0, c1, c2⟩ := coords_pointOf ⟨(i 0).val, h0⟩ ⟨(i 1).val, h1⟩ ⟨(i 2).val / 256, by omega⟩
  obtain ⟨e0, e1, e2, e3⟩ := idx_rows5 (pointOf ⟨(i 0).val, h0⟩ ⟨(i 1).val, h1⟩ ⟨(i 2).val / 256, by omega⟩)
  rw [mem_attnBlk]
  intro a
  match a with
  | ⟨0, _⟩ => show win0_5.index _ (0 : Fin 4) * 1 ≤ (i 0).val ∧ (i 0).val < win0_5.index _ (0 : Fin 4) * 1 + 1; rw [e0, c0]; dsimp only; omega
  | ⟨1, _⟩ => show win0_5.index _ (1 : Fin 4) * 1 ≤ (i 1).val ∧ (i 1).val < win0_5.index _ (1 : Fin 4) * 1 + 1; rw [e1, c1]; dsimp only; omega
  | ⟨2, _⟩ => show win0_5.index _ (2 : Fin 4) * 256 ≤ (i 2).val ∧ (i 2).val < win0_5.index _ (2 : Fin 4) * 256 + 256; rw [e2, c2]; dsimp only; omega
  | ⟨3, _⟩ => show win0_5.index _ (3 : Fin 4) * 2048 ≤ (i 3).val ∧ (i 3).val < win0_5.index _ (3 : Fin 4) * 2048 + 2048; rw [e3]; omega

/-- Every entry of the context array likewise. -/
theorem context_cover (i : S2x16x2048x64.Idx) :
    ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  refine ⟨pointOf ⟨(i 0).val, h0⟩ ⟨(i 1).val, h1⟩ ⟨(i 2).val / 256, by omega⟩, flush0_4 _, ?_⟩
  obtain ⟨c0, c1, c2⟩ := coords_pointOf ⟨(i 0).val, h0⟩ ⟨(i 1).val, h1⟩ ⟨(i 2).val / 256, by omega⟩
  obtain ⟨e0, e1, e2, e3⟩ := idx_rows4 (pointOf ⟨(i 0).val, h0⟩ ⟨(i 1).val, h1⟩ ⟨(i 2).val / 256, by omega⟩)
  rw [mem_contextBlk]
  intro a
  match a with
  | ⟨0, _⟩ => show win0_4.index _ (0 : Fin 4) * 1 ≤ (i 0).val ∧ (i 0).val < win0_4.index _ (0 : Fin 4) * 1 + 1; rw [e0, c0]; dsimp only; omega
  | ⟨1, _⟩ => show win0_4.index _ (1 : Fin 4) * 1 ≤ (i 1).val ∧ (i 1).val < win0_4.index _ (1 : Fin 4) * 1 + 1; rw [e1, c1]; dsimp only; omega
  | ⟨2, _⟩ => show win0_4.index _ (2 : Fin 4) * 256 ≤ (i 2).val ∧ (i 2).val < win0_4.index _ (2 : Fin 4) * 256 + 256; rw [e2, c2]; dsimp only; omega
  | ⟨3, _⟩ => show win0_4.index _ (3 : Fin 4) * 64 ≤ (i 3).val ∧ (i 3).val < win0_4.index _ (3 : Fin 4) * 64 + 64; rw [e3]; omega

/-! ## The two result arrays after the run -/

theorem attn_final (c : Dev nD) : (dats m 0 c).arrAt 5 cfg0.N = attn (argQ m c) (argK m c) (argM m c) :=
  (dats m 0 c).arrAt_eq_of_cover 5 _ (fun t _ => attnFlushed m c t) attn_cover

theorem context_final (c : Dev nD) : (dats m 0 c).arrAt 4 cfg0.N = context (argQ m c) (argK m c) (argV m c) (argM m c) :=
  (dats m 0 c).arrAt_eq_of_cover 4 _ (fun t _ => contextFlushed m c t) context_cover

/-- The kernel's run: every weakly fair execution ends with the context and the attention weights of the launched
    arguments in the two result arrays, and the arguments unchanged. -/
theorem run : θ_run defs (onTc (τ := τ) (main (F := Ideal))) ⟨m, fun _ => 0, ρ⟩ fun r => ∀ c : Dev nD,
      r.2.mem ((c : Thread nD τ).loc main_v4_0) = context (argQ m c) (argK m c) (argV m c) (argM m c)
      ∧ r.2.mem ((c : Thread nD τ).loc main_v4_1) = attn (argQ m c) (argK m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (context_final m c), (h c).2.1.trans (attn_final m c), (h c).2.2⟩)
    (Value.run_blocks m ρ)

end Cert.KernelIdeal.ArrayValue

end
-- ==== Proof.RefValue.lean ====
/-
  The reference's run, stage by stage, is the specification.

  Read at `(b, h, q, k)`: the first product contracts the feature axis of the query and key arrays with batch and head
  carried, so its entry is query row `(b, h, q)` against key row `(b, h, k)`; scaled and masked it is the score. The row's
  maximum is a reduction over the last axis from `-∞`, and the further maximum with `-∞` that follows changes nothing,
  because a maximum taken from a starting value is never below it. The two broadcasts put the row's value back at every
  key position. The sum of the shifted exponentials starts from zero. The quotient is the softmax of the row, and the last
  product contracts the key axis of the weights with the position axis of the value array.
-/
import proofs.«145844_j34772055228636_1_alg».proof.Proof.Gen.ReferenceIdeal.Read
import proofs.«145844_j34772055228636_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.MaskedAttention

variable (Q K V : (⟨S2x16x2048x64, .f32⟩ : BufTy).Contents (Elt Ideal)) (M : (⟨S2x16x2048x2048, .i1⟩ : BufTy).Contents (Elt Ideal))

/-! ## The composed index functions at coordinates -/

theorem lidx_scores (b : Fin 2) (h : Fin 16) (q k : Fin 2048) (d : Fin 64) : lidx_main_v0 (ix4 b h q k) d = ix4 b h q d :=
  funext fun a => Fin.ext (by match a with | ⟨0, _⟩ => rfl | ⟨1, _⟩ => rfl | ⟨2, _⟩ => rfl | ⟨3, _⟩ => rfl)

theorem ridx_scores (b : Fin 2) (h : Fin 16) (q k : Fin 2048) (d : Fin 64) : ridx_main_v0 (ix4 b h q k) d = ix4 b h k d :=
  funext fun a => Fin.ext (by match a with | ⟨0, _⟩ => rfl | ⟨1, _⟩ => rfl | ⟨2, _⟩ => rfl | ⟨3, _⟩ => rfl)

theorem idx_keepMax (b : Fin 2) (h : Fin 16) (q k : Fin 2048) : idx_main_v7 (idx_main_v8 (ix4 b h q k)) = ix3 b h q :=
  funext fun a => Fin.ext (by match a with | ⟨0, _⟩ => rfl | ⟨1, _⟩ => rfl | ⟨2, _⟩ => rfl)

theorem idx_keepSum (b : Fin 2) (h : Fin 16) (q k : Fin 2048) : idx_main_v12 (idx_main_v13 (ix4 b h q k)) = ix3 b h q :=
  funext fun a => Fin.ext (by match a with | ⟨0, _⟩ => rfl | ⟨1, _⟩ => rfl | ⟨2, _⟩ => rfl)

theorem idx_sum (b : Fin 2) (h : Fin 16) (q k : Fin 2048) : idx_main_v11 (ix3 b h q) k = ix4 b h q k :=
  funext fun a => Fin.ext (by match a with | ⟨0, _⟩ => rfl | ⟨1, _⟩ => rfl | ⟨2, _⟩ => rfl | ⟨3, _⟩ => rfl)

theorem lidx_context (b : Fin 2) (h : Fin 16) (q : Fin 2048) (d : Fin 64) (k : Fin 2048) : lidx_main_v15 (ix4 b h q d) k = ix4 b h q k :=
  funext fun a => Fin.ext (by match a with | ⟨0, _⟩ => rfl | ⟨1, _⟩ => rfl | ⟨2, _⟩ => rfl | ⟨3, _⟩ => rfl)

theorem ridx_context (b : Fin 2) (h : Fin 16) (q : Fin 2048) (d : Fin 64) (k : Fin 2048) : ridx_main_v15 (ix4 b h q d) k = ix4 b h k d :=
  funext fun a => Fin.ext (by match a with | ⟨0, _⟩ => rfl | ⟨1, _⟩ => rfl | ⟨2, _⟩ => rfl | ⟨3, _⟩ => rfl)

/-! ## The stages -/

/-- Dropping the key axis of the scores' shape leaves the shape of one value per query row. -/
theorem reduces_keys : S2x16x2048x2048.Reduces [3] S2x16x2048 := by decide

/-- The masked, scaled scores. -/
theorem scores_apply (b : Fin 2) (h : Fin 16) (q k : Fin 2048) :
    val_main_v3 (F := Ideal) Q K M (ix4 b h q k) = scoreRow Q K M b h q k := by
  rw [val_main_v3_apply, val_main_call0_v0_apply, val_main_cst_0_apply, val_main_v2_apply, val_main_v0_apply,
    val_main_v1_apply, val_main_cst_apply]
  simp only [lidx_scores, ridx_scores]
  rfl

/-- The reduction over the last axis, at row `(b, h, q)`, is the maximum of the row of scores. -/
theorem rowMax_apply (b : Fin 2) (h : Fin 16) (q : Fin 2048) :
    val_main_v4 (F := Ideal) Q K M (ix3 b h q) = rowMax (scoreRow Q K M b h q) := by
  have hred : S2x16x2048x2048.Reduces [3] S2x16x2048 := reduces_keys
  unfold val_main_v4
  refine (Host.reduce_eq_fold_single (α := Ideal .f32) (FloatOps.maximumf (F := Ideal) (φ := .f32))
    (val_main_v3 (F := Ideal) Q K M : S2x16x2048x2048.Idx → Ideal .f32) (val_main_cst_1 (F := Ideal) : S_.Idx → Ideal .f32)
    reducesTo_S2x16x2048x2048_S2x16x2048_d3 hred h_S_ (ix3 b h q)).trans ?_
  show (Finset.univ : Finset (Fin 2048)).fold max (Ideal.ofBits .f32 0xFF800000#32)
    (fun k => val_main_v3 (F := Ideal) Q K M (hred.lift (ix3 b h q) k)) = _
  refine Finset.fold_congr fun (k : Fin 2048) _ => ?_
  have e : hred.lift (ix3 b h q) k = ix4 b h q k :=
    funext fun a => Fin.ext (by match a with | ⟨0, _⟩ => rfl | ⟨1, _⟩ => rfl | ⟨2, _⟩ => rfl | ⟨3, _⟩ => rfl)
  show val_main_v3 (F := Ideal) Q K M (hred.lift (ix3 b h q) k) = _
  rw [e]
  exact scores_apply Q K M b h q k

/-- A maximum taken from a starting value is not below it, so the further maximum with that value changes nothing. -/
theorem rowMax_again_apply (b : Fin 2) (h : Fin 16) (q : Fin 2048) :
    val_main_v6 (F := Ideal) Q K M (ix3 b h q) = rowMax (scoreRow Q K M b h q) := by
  rw [val_main_v6_apply, val_main_v5_apply, val_main_cst_2_apply, rowMax_apply]
  show max (Ideal.ofBits .f32 0xFF800000#32) (rowMax (scoreRow Q K M b h q)) = _
  exact max_eq_right ((Finset.le_fold_max _).mpr (Or.inl le_rfl))

/-- The row's maximum, put back at every key position. -/
theorem keptMax_apply (b : Fin 2) (h : Fin 16) (q k : Fin 2048) :
    val_main_v8 (F := Ideal) Q K M (ix4 b h q k) = rowMax (scoreRow Q K M b h q) := by
  rw [val_main_v8_apply, val_main_v7_apply, idx_keepMax, rowMax_again_apply]

/-- The exponential of the shifted score. -/
theorem shifted_apply (b : Fin 2) (h : Fin 16) (q k : Fin 2048) :
    val_main_v10 (F := Ideal) Q K M (ix4 b h q k) = expShifted (scoreRow Q K M b h q) k := by
  rw [val_main_v10_apply, val_main_v9_apply, keptMax_apply, scores_apply]
  rfl

/-- The sum of the row's shifted exponentials, from zero. -/
theorem rowSum_apply (b : Fin 2) (h : Fin 16) (q : Fin 2048) :
    val_main_v11 (F := Ideal) Q K M (ix3 b h q) = ∑ k : Fin 2048, expShifted (scoreRow Q K M b h q) k := by
  rw [val_main_v11_apply, val_main_cst_3_apply]
  show Ideal.ofBits .f32 0x00000000#32 + _ = _
  rw [Ideal.ofBits_zero_f32, zero_add]
  refine Finset.sum_congr rfl fun k _ => ?_
  rw [idx_sum, shifted_apply]

/-- The row's sum, put back at every key position. -/
theorem keptSum_apply (b : Fin 2) (h : Fin 16) (q k : Fin 2048) :
    val_main_v13 (F := Ideal) Q K M (ix4 b h q k) = ∑ k' : Fin 2048, expShifted (scoreRow Q K M b h q) k' := by
  rw [val_main_v13_apply, val_main_v12_apply, idx_keepSum, rowSum_apply]

/-- The attention weights. -/
theorem weights_apply (b : Fin 2) (h : Fin 16) (q k : Fin 2048) :
    val_main_v14 (F := Ideal) Q K M (ix4 b h q k) = attnAt Q K M b h q k := by
  rw [val_main_v14_apply, shifted_apply, keptSum_apply]
  rfl

/-- The context. -/
theorem context_apply (b : Fin 2) (h : Fin 16) (q : Fin 2048) (d : Fin 64) :
    val_main_v15 (F := Ideal) Q K V M (ix4 b h q d) = contextAt Q K V M b h q d := by
  rw [val_main_v15_apply]
  refine Finset.sum_congr rfl fun k _ => ?_
  rw [lidx_context, ridx_context, weights_apply]

/-! ## The two results as arrays -/

theorem weights_eq : val_main_v14 (F := Ideal) Q K M = attn Q K M := by
  funext i
  obtain ⟨b, h, q, k, rfl⟩ : ∃ (b : Fin 2) (h : Fin 16) (q k : Fin 2048), i = ix4 b h q k := ⟨i 0, i 1, i 2, i 3, eq_ix4 i⟩
  exact weights_apply Q K M b h q k

theorem context_eq : val_main_v15 (F := Ideal) Q K V M = context Q K V M := by
  funext i
  obtain ⟨b, h, q, d, rfl⟩ : ∃ (b : Fin 2) (h : Fin 16) (q : Fin 2048) (d : Fin 64), i = ix4 b h q d := ⟨i 0, i 1, i 2, i 3, eq_ix4 i⟩
  exact context_apply Q K V M b h q d

end Cert.ReferenceIdeal.RefValue

end
-- ==== Proof.lean ====
/-
  Masked scaled dot-product attention, tiled over (batch, head, 256 query rows), against the whole-array reference.

  On the extended reals both programs compute, for every batch, head and query position, the row of masked scores
  `(q · k) / 8` (the fill value where the mask bit is set), its softmax in the shifted form `exp (s - max s) / Σ exp (s - max s)`,
  and the weights against the value rows. The kernel does it block by block: each grid point takes 256 query rows with
  every key and value row of its batch and head, and writes back the corresponding rows of both results; its blocks tile
  the result arrays. The reference does it on whole arrays. The two sides perform the same operations in the same order, so
  no law of arithmetic is needed beyond what reading a reduction as a sum or a maximum over an index set takes: the sums
  start from zero on both sides, and the reference's extra maximum with `-∞` changes nothing. The precondition (finite
  inputs) is not used.

  `Cert.MaskedAttention` (Proof/Spec.lean) states the two result arrays as functions of the arguments;
  `Cert.KernelIdeal.ArrayValue.run` is the kernel's run ending at those functions, `Cert.ReferenceIdeal.RefValue` shows the
  reference's run ends at the same ones. The three frames are the generated ones; the idealization rewrote nothing, so
  `preserves` is `True`.
-/
import proofs.«145844_j34772055228636_1_alg».proof.Defs
import proofs.«145844_j34772055228636_1_alg».proof.Proof.Gen.Kernel
import proofs.«145844_j34772055228636_1_alg».proof.Proof.Gen.Kernel.Skeleton
import proofs.«145844_j34772055228636_1_alg».proof.Proof.Gen.Kernel.Launch
import proofs.«145844_j34772055228636_1_alg».proof.Proof.Gen.Kernel.Points
import proofs.«145844_j34772055228636_1_alg».proof.Proof.Gen.Kernel.Frame
import proofs.«145844_j34772055228636_1_alg».proof.Proof.Gen.KernelIdeal
import proofs.«145844_j34772055228636_1_alg».proof.Proof.Gen.KernelIdeal.Skeleton
import proofs.«145844_j34772055228636_1_alg».proof.Proof.Gen.KernelIdeal.Launch
import proofs.«145844_j34772055228636_1_alg».proof.Proof.Gen.KernelIdeal.Points
import proofs.«145844_j34772055228636_1_alg».proof.Proof.Gen.KernelIdeal.Frame
import proofs.«145844_j34772055228636_1_alg».proof.Proof.Gen.ReferenceIdeal
import proofs.«145844_j34772055228636_1_alg».proof.Proof.Gen.Pre_finite_inputs
import proofs.«145844_j34772055228636_1_alg».proof.Proof.Gen.KernelIdeal.Value
import proofs.«145844_j34772055228636_1_alg».proof.Proof.Gen.ReferenceIdeal.Run
import proofs.«145844_j34772055228636_1_alg».proof.Proof.Gen.ReferenceIdeal.Read
import proofs.«145844_j34772055228636_1_alg».proof.Proof.ArrayValue
import proofs.«145844_j34772055228636_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both runs end with the context and the attention weights of the launched arguments, and the arguments agree. -/
theorem algebraic : Cert.algebraic_KernelIdeal_ReferenceIdeal := by
  intro m ρ m' ρ' _ hagree
  refine ⟨fun c => Cert.MaskedAttention.context (Cert.KernelIdeal.ArrayValue.argQ m c) (Cert.KernelIdeal.ArrayValue.argK m c)
      (Cert.KernelIdeal.ArrayValue.argV m c) (Cert.KernelIdeal.ArrayValue.argM m c),
    fun c => Cert.MaskedAttention.attn (Cert.KernelIdeal.ArrayValue.argQ m c) (Cert.KernelIdeal.ArrayValue.argK m c)
      (Cert.KernelIdeal.ArrayValue.argM m c),
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.context_eq, (hagree c).1, (hagree c).2.1,
      (hagree c).2.2.1, (hagree c).2.2.2]
  · rw [Cert.ReferenceIdeal.Read.val_main_v14_eq, Cert.ReferenceIdeal.RefValue.weights_eq, (hagree c).1, (hagree c).2.1,
      (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
